-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S50000 : Shape := ⟨1, ![50000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S64x2 .f32) (main_arg10 : FVec F S2 .f32) (main_v33 : IVec S_ 1) : IVec S_ 1 :=
  let main_v34 : FVec F S64x2 .f32 := Host.absf main_arg9
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128 .f32) (main_arg7 : FVec F S128x64 .f32) (main_arg8 : FVec F S64 .f32) (main_arg9 : FVec F S64x2 .f32) (main_arg10 : FVec F S2 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x512 .f32) (main_arg1 : IVec S2x800000 32) (main_arg2 : IVec S50000 32) (main_arg3 : FVec F S512x256 .f32) (main_arg4 : FVec F S256 .f32) (main_arg5 : FVec F S256x128 .f32) (main_arg6 : FVec F S128 .f32) (main_arg7 : FVec F S128x64 .f32) (main_arg8 : FVec F S64 .f32) (main_arg9 : FVec F S64x2 .f32) (main_arg10 : FVec F S2 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_v13 main_v16
-- ==== Kernel.lean ====
abbrev S50000x512 : Shape := ⟨2, ![50000, 512]⟩
abbrev S2x800000 : Shape := ⟨2, ![2, 800000]⟩
abbrev S50000 : Shape := ⟨1, ![50000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S50000x256 : Shape := ⟨2, ![50000, 256]⟩
abbrev S2000x512 : Shape := ⟨2, ![2000, 512]⟩
abbrev S2000x256 : Shape := ⟨2, ![2000, 256]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩
abbrev S64x64 : Shape := ⟨2, ![64, 64]⟩
abbrev S50000x1 : Shape := ⟨2, ![50000, 1]⟩
abbrev S64x1 : Shape := ⟨2, ![64, 1]⟩
abbrev S1x2 : Shape := ⟨2, ![1, 2]⟩

abbrev nBuf : Space → Nat
  | .hbm => 217
  | .vmem => 15
  | .smem => 0
  | _ => 0

abbrev hbmTy0_0 (i : Nat) : BufTy := match i % 128 with
  | 0 => ⟨S50000x512, .f32⟩
  | 1 => ⟨S2x800000, .i32⟩
  | 2 => ⟨S50000, .i32⟩
  | 3 => ⟨S512x256, .f32⟩
  | 4 => ⟨S256, .f32⟩
  | 5 => ⟨S256x128, .f32⟩
  | 6 => ⟨S128, .f32⟩
  | 7 => ⟨S128x64, .f32⟩
  | 8 => ⟨S64, .f32⟩
  | 9 => ⟨S64x2, .f32⟩
  | 10 => ⟨S2, .f32⟩
  | 11 => ⟨S50000x256, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x256, .f32⟩
  | 61 => ⟨S850000x1, .f32⟩
  | 62 => ⟨S850000x256, .f32⟩
  | 63 => ⟨S850000x256, .f32⟩
  | 64 => ⟨S_, .f32⟩
  | 65 => ⟨S50000x256, .f32⟩
  | 66 => ⟨S850000x1, .i32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S50000x128, .f32⟩
  | 75 => ⟨S50000, .i32⟩
  | 76 => ⟨S1x800000, .i32⟩
  | 77 => ⟨S800000, .i32⟩
  | 78 => ⟨S850000, .i32⟩
  | 79 => ⟨S1x800000, .i32⟩
  | 80 => ⟨S800000, .i32⟩
  | 81 => ⟨S850000, .i32⟩
  | 82 => ⟨S_, .f32⟩
  | 83 => ⟨S850000, .f32⟩
  | 84 => ⟨S_, .f32⟩
  | 85 => ⟨S50000, .f32⟩
  | 86 => ⟨S850000x1, .i32⟩
  | 87 => ⟨S50000, .f32⟩
  | 88 => ⟨S_, .f32⟩
  | 89 => ⟨S50000, .f32⟩
  | 90 => ⟨S50000, .i1⟩
  | 91 => ⟨S50000, .f32⟩
  | 92 => ⟨S_, .f32⟩
  | 93 => ⟨S_, .f32⟩
  | 94 => ⟨S50000, .f32⟩
  | 95 => ⟨S50000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000, .f32⟩
  | 114 => ⟨S850000, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x128, .f32⟩
  | 124 => ⟨S850000x1, .f32⟩
  | 125 => ⟨S850000x128, .f32⟩
  | 126 => ⟨S850000x128, .f32⟩
  | 127 => ⟨S_, .f32⟩
  | _ => ⟨S50000x512, .f32⟩

abbrev hbmTy0_1 (i : Nat) : BufTy := match i % 128 with
  | 0 => ⟨S50000x128, .f32⟩
  | 1 => ⟨S850000x1, .i32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S50000x64, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x64, .f32⟩
  | 59 => ⟨S850000x1, .f32⟩
  | 60 => ⟨S850000x64, .f32⟩
  | 61 => ⟨S850000x64, .f32⟩
  | 62 => ⟨S_, .f32⟩
  | 63 => ⟨S50000x64, .f32⟩
  | 64 => ⟨S850000x1, .i32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S64x64, .f32⟩
  | 71 => ⟨S50000x1, .i32⟩
  | 72 => ⟨S64x64, .f32⟩
  | 73 => ⟨S_, .f32⟩
  | 74 => ⟨S50000, .f32⟩
  | 75 => ⟨S_, .f32⟩
  | 76 => ⟨S64, .f32⟩
  | 77 => ⟨S50000x1, .i32⟩
  | 78 => ⟨S64, .f32⟩
  | 79 => ⟨S_, .f32⟩
  | 80 => ⟨S64, .f32⟩
  | 81 => ⟨S64, .f32⟩
  | 82 => ⟨S64x1, .f32⟩
  | 83 => ⟨S64x64, .f32⟩
  | 84 => ⟨S64x64, .f32⟩
  | 85 => ⟨S64x2, .f32⟩
  | 86 => ⟨S1x2, .f32⟩
  | 87 => ⟨S64x2, .f32⟩
  | 88 => ⟨S64x2, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_9 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v63 : Ref sig .tc := ⟨.hbm, 95, rfl⟩
abbrev main_c_13 : Ref sig .tc := ⟨.hbm, 96, rfl⟩
abbrev main_v64 : Ref sig .tc := ⟨.hbm, 97, rfl⟩
abbrev main_v65 : Ref sig .tc := ⟨.hbm, 98, rfl⟩
abbrev main_c_14 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_15 : Ref sig .tc := ⟨.hbm, 105, rfl⟩
abbrev main_v71 : Ref sig .tc := ⟨.hbm, 106, rfl⟩
abbrev main_v72 : Ref sig .tc := ⟨.hbm, 107, rfl⟩
abbrev main_c_16 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_17 : Ref sig .tc := ⟨.hbm, 115, rfl⟩
abbrev main_v79 : Ref sig .tc := ⟨.hbm, 116, rfl⟩
abbrev main_v80 : Ref sig .tc := ⟨.hbm, 117, rfl⟩
abbrev main_c_18 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_19 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_call3_cst : Ref sig .tc := ⟨.hbm, 134, rfl⟩
abbrev main_call3_v0 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_20 : Ref sig .tc := ⟨.hbm, 145, rfl⟩
abbrev main_v104 : Ref sig .tc := ⟨.hbm, 146, rfl⟩
abbrev main_cst_21 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_22 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_23 : Ref sig .tc := ⟨.hbm, 155, rfl⟩
abbrev main_call4_v0 : Ref sig .tc := ⟨.hbm, 156, rfl⟩
abbrev main_call4_v1 : Ref sig .tc := ⟨.hbm, 157, rfl⟩
abbrev main_v111 : Ref sig .tc := ⟨.hbm, 158, rfl⟩
abbrev main_c_24 : Ref sig .tc := ⟨.hbm, 159, rfl⟩
abbrev main_v112 : Ref sig .tc := ⟨.hbm, 160, rfl⟩
abbrev main_v113 : Ref sig .tc := ⟨.hbm, 161, rfl⟩
abbrev main_c_25 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_c_26 : Ref sig .tc := ⟨.hbm, 168, rfl⟩
abbrev main_v119 : Ref sig .tc := ⟨.hbm, 169, rfl⟩
abbrev main_v120 : Ref sig .tc := ⟨.hbm, 170, rfl⟩
abbrev main_c_27 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_c_28 : Ref sig .tc := ⟨.hbm, 178, rfl⟩
abbrev main_v127 : Ref sig .tc := ⟨.hbm, 179, rfl⟩
abbrev main_v128 : Ref sig .tc := ⟨.hbm, 180, rfl⟩
abbrev main_c_29 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_cst_30 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_31 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_cst_32 : Ref sig .tc := ⟨.hbm, 201, rfl⟩
abbrev main_v146 : Ref sig .tc := ⟨.hbm, 202, rfl⟩
abbrev main_cst_33 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_cst_34 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S2000x512_S512x256_S2000x256_1_0_0_1_n_n_wf : DotDims.WF S2000x512 S512x256 S2000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v95) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v96) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S50000 : Shape := ⟨1, ![50000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S50000x256 : Shape := ⟨2, ![50000, 256]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S64x64 : Shape := ⟨2, ![64, 64]⟩
abbrev S50000x1 : Shape := ⟨2, ![50000, 1]⟩
abbrev S64x1 : Shape := ⟨2, ![64, 1]⟩
abbrev S1x2 : Shape := ⟨2, ![1, 2]⟩

abbrev nBuf : Space → Nat
  | .hbm => 217
  | .vmem => 0
  | .smem => 0
  | _ => 0

abbrev hbmTy0_0 (i : Nat) : BufTy := match i % 128 with
  | 0 => ⟨S50000x512, .f32⟩
  | 1 => ⟨S2x800000, .i32⟩
  | 2 => ⟨S50000, .i32⟩
  | 3 => ⟨S512x256, .f32⟩
  | 4 => ⟨S256, .f32⟩
  | 5 => ⟨S256x128, .f32⟩
  | 6 => ⟨S128, .f32⟩
  | 7 => ⟨S128x64, .f32⟩
  | 8 => ⟨S64, .f32⟩
  | 9 => ⟨S64x2, .f32⟩
  | 10 => ⟨S2, .f32⟩
  | 11 => ⟨S50000x256, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x256, .f32⟩
  | 61 => ⟨S850000x1, .f32⟩
  | 62 => ⟨S850000x256, .f32⟩
  | 63 => ⟨S850000x256, .f32⟩
  | 64 => ⟨S_, .f32⟩
  | 65 => ⟨S50000x256, .f32⟩
  | 66 => ⟨S850000x1, .i32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S50000x128, .f32⟩
  | 75 => ⟨S50000, .i32⟩
  | 76 => ⟨S1x800000, .i32⟩
  | 77 => ⟨S800000, .i32⟩
  | 78 => ⟨S850000, .i32⟩
  | 79 => ⟨S1x800000, .i32⟩
  | 80 => ⟨S800000, .i32⟩
  | 81 => ⟨S850000, .i32⟩
  | 82 => ⟨S_, .f32⟩
  | 83 => ⟨S850000, .f32⟩
  | 84 => ⟨S_, .f32⟩
  | 85 => ⟨S50000, .f32⟩
  | 86 => ⟨S850000x1, .i32⟩
  | 87 => ⟨S50000, .f32⟩
  | 88 => ⟨S_, .f32⟩
  | 89 => ⟨S50000, .f32⟩
  | 90 => ⟨S50000, .i1⟩
  | 91 => ⟨S50000, .f32⟩
  | 92 => ⟨S_, .f32⟩
  | 93 => ⟨S_, .f32⟩
  | 94 => ⟨S50000, .f32⟩
  | 95 => ⟨S50000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000, .f32⟩
  | 114 => ⟨S850000, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x128, .f32⟩
  | 124 => ⟨S850000x1, .f32⟩
  | 125 => ⟨S850000x128, .f32⟩
  | 126 => ⟨S850000x128, .f32⟩
  | 127 => ⟨S_, .f32⟩
  | _ => ⟨S50000x512, .f32⟩

abbrev hbmTy0_1 (i : Nat) : BufTy := match i % 128 with
  | 0 => ⟨S50000x128, .f32⟩
  | 1 => ⟨S850000x1, .i32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S50000x64, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x64, .f32⟩
  | 59 => ⟨S850000x1, .f32⟩
  | 60 => ⟨S850000x64, .f32⟩
  | 61 => ⟨S850000x64, .f32⟩
  | 62 => ⟨S_, .f32⟩
  | 63 => ⟨S50000x64, .f32⟩
  | 64 => ⟨S850000x1, .i32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S64x64, .f32⟩
  | 71 => ⟨S50000x1, .i32⟩
  | 72 => ⟨S64x64, .f32⟩
  | 73 => ⟨S_, .f32⟩
  | 74 => ⟨S50000, .f32⟩
  | 75 => ⟨S_, .f32⟩
  | 76 => ⟨S64, .f32⟩
  | 77 => ⟨S50000x1, .i32⟩
  | 78 => ⟨S64, .f32⟩
  | 79 => ⟨S_, .f32⟩
  | 80 => ⟨S64, .f32⟩
  | 81 => ⟨S64, .f32⟩
  | 82 => ⟨S64x1, .f32⟩
  | 83 => ⟨S64x64, .f32⟩
  | 84 => ⟨S64x64, .f32⟩
  | 85 => ⟨S64x2, .f32⟩
  | 86 => ⟨S1x2, .f32⟩
  | 87 => ⟨S64x2, .f32⟩
  | 88 => ⟨S64x2, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_9 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v63 : Ref sig .tc := ⟨.hbm, 95, rfl⟩
abbrev main_c_13 : Ref sig .tc := ⟨.hbm, 96, rfl⟩
abbrev main_v64 : Ref sig .tc := ⟨.hbm, 97, rfl⟩
abbrev main_v65 : Ref sig .tc := ⟨.hbm, 98, rfl⟩
abbrev main_c_14 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_15 : Ref sig .tc := ⟨.hbm, 105, rfl⟩
abbrev main_v71 : Ref sig .tc := ⟨.hbm, 106, rfl⟩
abbrev main_v72 : Ref sig .tc := ⟨.hbm, 107, rfl⟩
abbrev main_c_16 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_17 : Ref sig .tc := ⟨.hbm, 115, rfl⟩
abbrev main_v79 : Ref sig .tc := ⟨.hbm, 116, rfl⟩
abbrev main_v80 : Ref sig .tc := ⟨.hbm, 117, rfl⟩
abbrev main_c_18 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_19 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_call3_cst : Ref sig .tc := ⟨.hbm, 134, rfl⟩
abbrev main_call3_v0 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_20 : Ref sig .tc := ⟨.hbm, 145, rfl⟩
abbrev main_v104 : Ref sig .tc := ⟨.hbm, 146, rfl⟩
abbrev main_cst_21 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_22 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_23 : Ref sig .tc := ⟨.hbm, 155, rfl⟩
abbrev main_call4_v0 : Ref sig .tc := ⟨.hbm, 156, rfl⟩
abbrev main_call4_v1 : Ref sig .tc := ⟨.hbm, 157, rfl⟩
abbrev main_v111 : Ref sig .tc := ⟨.hbm, 158, rfl⟩
abbrev main_c_24 : Ref sig .tc := ⟨.hbm, 159, rfl⟩
abbrev main_v112 : Ref sig .tc := ⟨.hbm, 160, rfl⟩
abbrev main_v113 : Ref sig .tc := ⟨.hbm, 161, rfl⟩
abbrev main_c_25 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_c_26 : Ref sig .tc := ⟨.hbm, 168, rfl⟩
abbrev main_v119 : Ref sig .tc := ⟨.hbm, 169, rfl⟩
abbrev main_v120 : Ref sig .tc := ⟨.hbm, 170, rfl⟩
abbrev main_c_27 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_c_28 : Ref sig .tc := ⟨.hbm, 178, rfl⟩
abbrev main_v127 : Ref sig .tc := ⟨.hbm, 179, rfl⟩
abbrev main_v128 : Ref sig .tc := ⟨.hbm, 180, rfl⟩
abbrev main_c_29 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_cst_30 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_31 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_cst_32 : Ref sig .tc := ⟨.hbm, 201, rfl⟩
abbrev main_v146 : Ref sig .tc := ⟨.hbm, 202, rfl⟩
abbrev main_cst_33 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_cst_34 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x2_S64x2_1_0_0_1_n_n_wf : DotDims.WF S64x64 S64x2 S64x2 [1] [0] [0] [1] [] []

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.NamedRun.lean ====
/-
  The kernel's program is three row-tiled matrix products with stretches of host operations before, between and
  after them.  Its run is the run of those segments in order, and the contents of every buffer at each boundary
  are a fold from the launch memory: a host stretch applies its operations, a product's region replaces its
  output array by what its write-backs leave.  Here that run is stated keeping EVERY buffer the program does not
  scope at the last boundary's contents, so that the result buffer can be read, and not only the arguments.
-/
import proofs.«136460_j27874337751415_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in the final state every buffer
    the program does not scope holds the last boundary's contents: the segments launched in order, the last
    thread state read against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The same run with the result buffer and the eleven arguments named: the result at the last boundary's
    contents, each argument as launched (no host operation and no region writes one). -/
theorem run_result : θ_run defs (onTc (τ := τ) (main (F := F))) ⟨m, fun _ => 0, ρ⟩ (fun r => ∀ c : Dev nD,
      r.2.mem ((c.tc : Thread nD τ).loc main_v158) = W14 m ρ c (Proc.devRef .tc main_v158)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨h c _ (mem_uc main_v158 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)
    (run_all m ρ)

end Cert.KernelIdeal.Named

end
-- ==== Proof.Layers.lean ====
/-
  What the graph network does to the three matrix products, as functions.

  The network is three graph convolutions and a pooling head.  A convolution takes node features `h` (already
  multiplied by the layer's weight matrix), and for every edge `s → n` of the graph with one self-loop added per
  node adds `w(s,n) · h[s]` into row `n`, where `w(s,n) = d(s)·d(n)` and `d = 1/sqrt(degree)` (0 where the degree
  is 0), then adds the bias.  The first two are followed by `max(·, 0)`.  The head averages the node features of
  each of the 64 graphs (sums divided by `max(count, 1)`), multiplies by the last weight matrix and adds its bias.

  These functions are stated once, over any float values: both programs apply exactly these host operations, the
  kernel's around its row-tiled products and the reference's around its whole products, so the two results are
  compared through them without opening a gather or a scatter.
-/
import proofs.«136460_j27874337751415_1_alg».proof.KernelIdeal

noncomputable section

namespace Cert.KernelIdeal.Layers

open Cert.KernelIdeal Idealize.ShloMosaic

variable {F : FTy → Type} [FloatOps F] [Facts₀]

open Facts₀

/-- The edges' source nodes followed by the 50000 self-loops' (node `n` itself). -/
def sources (e : (⟨S2x800000, .i32⟩ : BufTy).Contents (Elt F)) : (⟨S850000, .i32⟩ : BufTy).Contents (Elt F) :=
  concatenate S850000 0
    [⟨S800000, shapeCast _ (extractStridedSlice S1x800000 ![0, 0] e slices_S2x800000_S1x800000_0_0) shapeCasts_S1x800000_S800000⟩,
     ⟨S50000, iotaInDim S50000 32 0⟩] concatenates_S800000_S50000_S850000_d0

/-- The edges' target nodes followed by the self-loops'. -/
def targets (e : (⟨S2x800000, .i32⟩ : BufTy).Contents (Elt F)) : (⟨S850000, .i32⟩ : BufTy).Contents (Elt F) :=
  concatenate S850000 0
    [⟨S800000, shapeCast _ (extractStridedSlice S1x800000 ![1, 0] e slices_S2x800000_S1x800000_1_0) shapeCasts_S1x800000_S800000⟩,
     ⟨S50000, iotaInDim S50000 32 0⟩] concatenates_S800000_S50000_S850000_d0

/-- A negative node index counts from the end: `i + 50000` where `i < 0`. -/
def wrapped (v : (⟨S850000, .i32⟩ : BufTy).Contents (Elt F)) : (⟨S850000, .i32⟩ : BufTy).Contents (Elt F) :=
  select (cmpi .slt v (broadcastInDim S850000 ![] bcast_S_S850000 (constantI S_ 32 0#32)))
    (addi v (broadcastInDim S850000 ![] bcast_S_S850000 (constantI S_ 32 50000#32))) v

/-- A vector over the edges as a one-column array (the index form a gather or a scatter takes; also `w[:, None]`). -/
def column {T : EltTy} (v : (⟨S850000, T⟩ : BufTy).Contents (Elt F)) : (⟨S850000x1, T⟩ : BufTy).Contents (Elt F) :=
  broadcastInDim S850000x1 ![0] bcast_S850000_S850000x1_0 v

/-- Each node's degree: the number of edges and self-loops that end at it. -/
def degree (e : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant (F := F) S_ .f32 0x00000000#32))
    (column (targets e))
    (broadcastInDim S850000 ![] bcast_S_S850000 (constant (F := F) S_ .f32 0x3F800000#32))

/-- `1/sqrt(degree)` where the degree is positive, 0 elsewhere. -/
def invSqrtDegree (e : (⟨S2x800000, .i32⟩ : BufTy).Contents (Elt F)) : (⟨S50000, .f32⟩ : BufTy).Contents (Elt F) :=
  select (cmpf .ogt (degree e) (broadcastInDim S50000 ![] bcast_S_S50000 (constant (F := F) S_ .f32 0x00000000#32)))
    (Host.rsqrt (degree e))
    (broadcastInDim S50000 ![] bcast_S_S50000 (id (constant (F := F) S_ .f32 0x00000000#32)))

/-- The weight of each edge: the product of `1/sqrt(degree)` at its two ends. -/
def edgeWeight (e : (⟨S2x800000, .i32⟩ : BufTy).Contents (Elt F)) : (⟨S850000, .f32⟩ : BufTy).Contents (Elt F) :=
  mulf (Host.gather gather_S50000_S850000x1_S850000_n_0_n_n_0_1_1 (invSqrtDegree e) (column (wrapped (sources e))))
    (Host.gather gather_S50000_S850000x1_S850000_n_0_n_n_0_1_1 (invSqrtDegree e) (column (wrapped (targets e))))

/-- One graph convolution on 256 features: `out[n] = Σ_{edges s→n} w(s,n) · h[s] + b`, the edges' rows of `h` gathered at the
    sources, scaled by the edge weights, summed at the targets, the bias added to every row. -/
def conv256 (e : (⟨S2x800000, .i32⟩ : BufTy).Contents (Elt F)) (b : (⟨S256, .f32⟩ : BufTy).Contents (Elt F)) (h : (⟨S50000x256, .f32⟩ : BufTy).Contents (Elt F)) : (⟨S50000x256, .f32⟩ : BufTy).Contents (Elt F) :=
  addf
    (Host.scatterAdd scatter_S50000x256_S850000x1_S850000x256_1_0_0_1
      (broadcastInDim S50000x256 ![] bcast_S_S50000x256 (constant (F := F) S_ .f32 0x00000000#32))
      (column (targets e))
      (mulf (Host.gather gather_S50000x256_S850000x1_S850000x256_1_0_n_n_0_1_1256 h (column (wrapped (sources e))))
        (broadcastInDim S850000x256 ![0, 1] bcast_S850000x1_S850000x256_0_1 (column (edgeWeight e)))))
    (broadcastInDim S50000x256 ![0, 1] bcast_S1x256_S50000x256_0_1 (broadcastInDim S1x256 ![1] bcast_S256_S1x256_1 b))

/-- The convolution followed by `max(·, 0)`. -/
def layer256 (e : (⟨S2x800000, .i32⟩ : BufTy).Contents (Elt F)) (b : (⟨S256, .f32⟩ : BufTy).Contents (Elt F)) (h : (⟨S50000x256, .f32⟩ : BufTy).Contents (Elt F)) : (⟨S50000x256, .f32⟩ : BufTy).Contents (Elt F) :=
  maximumf (conv256 e b h) (broadcastInDim S50000x256 ![] bcast_S_S50000x256 (constant (F := F) S_ .f32 0x00000000#32))

/-- One graph convolution on 128 features: `out[n] = Σ_{edges s→n} w(s,n) · h[s] + b`, the edges' rows of `h` gathered at the
    sources, scaled by the edge weights, summed at the targets, the bias added to every row. -/
def conv128 (e : (⟨S2x800000, .i32⟩ : BufTy).Contents (Elt F)) (b : (⟨S128, .f32⟩ : BufTy).Contents (Elt F)) (h : (⟨S50000x128, .f32⟩ : BufTy).Contents (Elt F)) : (⟨S50000x128, .f32⟩ : BufTy).Contents (Elt F) :=
  addf
    (Host.scatterAdd scatter_S50000x128_S850000x1_S850000x128_1_0_0_1
      (broadcastInDim S50000x128 ![] bcast_S_S50000x128 (constant (F := F) S_ .f32 0x00000000#32))
      (column (targets e))
      (mulf (Host.gather gather_S50000x128_S850000x1_S850000x128_1_0_n_n_0_1_1128 h (column (wrapped (sources e))))
        (broadcastInDim S850000x128 ![0, 1] bcast_S850000x1_S850000x128_0_1 (column (edgeWeight e)))))
    (broadcastInDim S50000x128 ![0, 1] bcast_S1x128_S50000x128_0_1 (broadcastInDim S1x128 ![1] bcast_S128_S1x128_1 b))

/-- The convolution followed by `max(·, 0)`. -/
def layer128 (e : (⟨S2x800000, .i32⟩ : BufTy).Contents (Elt F)) (b : (⟨S128, .f32⟩ : BufTy).Contents (Elt F)) (h : (⟨S50000x128, .f32⟩ : BufTy).Contents (Elt F)) : (⟨S50000x128, .f32⟩ : BufTy).Contents (Elt F) :=
  maximumf (conv128 e b h) (broadcastInDim S50000x128 ![] bcast_S_S50000x128 (constant (F := F) S_ .f32 0x00000000#32))

/-- One graph convolution on 64 features: `out[n] = Σ_{edges s→n} w(s,n) · h[s] + b`, the edges' rows of `h` gathered at the
    sources, scaled by the edge weights, summed at the targets, the bias added to every row. -/
def conv64 (e : (⟨S2x800000, .i32⟩ : BufTy).Contents (Elt F)) (b : (⟨S64, .f32⟩ : BufTy).Contents (Elt F)) (h : (⟨S50000x64, .f32⟩ : BufTy).Contents (Elt F)) : (⟨S50000x64, .f32⟩ : BufTy).Contents (Elt F) :=
  addf
    (Host.scatterAdd scatter_S50000x64_S850000x1_S850000x64_1_0_0_1
      (broadcastInDim S50000x64 ![] bcast_S_S50000x64 (constant (F := F) S_ .f32 0x00000000#32))
      (column (targets e))
      (mulf (Host.gather gather_S50000x64_S850000x1_S850000x64_1_0_n_n_0_1_164 h (column (wrapped (sources e))))
        (broadcastInDim S850000x64 ![0, 1] bcast_S850000x1_S850000x64_0_1 (column (edgeWeight e)))))
    (broadcastInDim S50000x64 ![0, 1] bcast_S1x64_S50000x64_0_1 (broadcastInDim S1x64 ![1] bcast_S64_S1x64_1 b))

/-- The pooling head on the last convolution's output: per graph the mean of its nodes' rows (the rows summed by
    graph id, divided by `max(number of nodes, 1)`), times the last weight matrix, plus its bias. -/
def head (e : (⟨S2x800000, .i32⟩ : BufTy).Contents (Elt F)) (g : (⟨S50000, .i32⟩ : BufTy).Contents (Elt F)) (b : (⟨S64, .f32⟩ : BufTy).Contents (Elt F)) (w : (⟨S64x2, .f32⟩ : BufTy).Contents (Elt F)) (bl : (⟨S2, .f32⟩ : BufTy).Contents (Elt F))
    (h : (⟨S50000x64, .f32⟩ : BufTy).Contents (Elt F)) : (⟨S64x2, .f32⟩ : BufTy).Contents (Elt F) :=
  addf
    (Host.dotGeneral dot_S64x64_S64x2_S64x2_1_0_0_1_n_n none
      (Host.divf
        (Host.scatterAdd scatter_S64x64_S50000x1_S50000x64_1_0_0_1
          (broadcastInDim S64x64 ![] bcast_S_S64x64 (constant (F := F) S_ .f32 0x00000000#32))
          (broadcastInDim S50000x1 ![0] bcast_S50000_S50000x1_0 g)
          (conv64 e b h))
        (broadcastInDim S64x64 ![0, 1] bcast_S64x1_S64x64_0_1
          (broadcastInDim S64x1 ![0] bcast_S64_S64x1_0
            (maximumf
              (Host.scatterAdd scatter_S64_S50000x1_S50000_n_0_0_1
                (broadcastInDim S64 ![] bcast_S_S64 (constant (F := F) S_ .f32 0x00000000#32))
                (broadcastInDim S50000x1 ![0] bcast_S50000_S50000x1_0 g)
                (broadcastInDim S50000 ![] bcast_S_S50000 (constant (F := F) S_ .f32 0x3F800000#32)))
              (broadcastInDim S64 ![] bcast_S_S64 (constant (F := F) S_ .f32 0x3F800000#32))))))
      w)
    (broadcastInDim S64x2 ![0, 1] bcast_S1x2_S64x2_0_1 (broadcastInDim S1x2 ![1] bcast_S2_S1x2_1 bl))

end Cert.KernelIdeal.Layers

end
-- ==== Proof.HostStretches.lean ====
/-
  The three stretches of host operations of the kernel's program, each read as ONE function of the buffers it
  reads, whatever those hold when the stretch starts.

  After the first product the program runs the first convolution's host operations on the product's array and
  ends at `max(conv + bias, 0)`; after the second product the second convolution's; after the third the last
  convolution's and the pooling head.  Each stretch reads the edge list, its bias (the head also the graph ids, the
  last weight matrix and its bias) and the product's array, and writes only values of its own: every argument of
  the program passes through it untouched.
-/
import proofs.«136460_j27874337751415_1_alg».proof.Proof.Layers
import proofs.«136460_j27874337751415_1_alg».proof.Proof.Gen.KernelIdeal.Launch
import Idealize.ShloMosaic.Lib.StableHlo.Run

set_option maxRecDepth 16384

noncomputable section

namespace Cert.KernelIdeal.Stretches

open Cert.KernelIdeal Cert.KernelIdeal.Gen Cert.KernelIdeal.Layers
open Idealize.ShloMosaic Idealize.ShloMosaic.TcCoe Idealize.ShloMosaic.StableHlo

variable {F : FTy → Type} [FloatOps F]

set_option maxHeartbeats 8000000 in
/-- The stretch after the first product: the first convolution and its `max(·, 0)`, of the edge list, the first bias
    and the product's array. -/
theorem first_eq (V : Valuation τ sig (Elt F)) :
    StableHlo.after hostOps1_3 (StableHlo.after hostOps1_2 (StableHlo.after hostOps1_1 (StableHlo.after hostOps1 V))) (Proc.devRef .tc main_v47)
      = layer256 (V (Proc.devRef .tc main_arg1)) (V (Proc.devRef .tc main_arg4)) (V (Proc.devRef .tc main_v0)) := by
  after_results_simp
  rfl

set_option maxHeartbeats 8000000 in
/-- The stretch after the second product: the second convolution and its `max(·, 0)`. -/
theorem second_eq (V : Valuation τ sig (Elt F)) :
    StableHlo.after hostOps2_3 (StableHlo.after hostOps2_2 (StableHlo.after hostOps2_1 (StableHlo.after hostOps2 V))) (Proc.devRef .tc main_v95)
      = layer128 (V (Proc.devRef .tc main_arg1)) (V (Proc.devRef .tc main_arg6)) (V (Proc.devRef .tc main_v48)) := by
  after_results_simp
  rfl

set_option maxHeartbeats 8000000 in
/-- The stretch after the third product: the last convolution and the pooling head. -/
theorem third_eq (V : Valuation τ sig (Elt F)) :
    StableHlo.after hostOps3_2 (StableHlo.after hostOps3_1 (StableHlo.after hostOps3 V)) (Proc.devRef .tc main_v158)
      = head (V (Proc.devRef .tc main_arg1)) (V (Proc.devRef .tc main_arg2)) (V (Proc.devRef .tc main_arg8)) (V (Proc.devRef .tc main_arg9)) (V (Proc.devRef .tc main_arg10))
          (V (Proc.devRef .tc main_v96)) := by
  after_results_simp
  rfl

/-! No stretch writes an argument of the program. -/

theorem first_arg1 (V : Valuation τ sig (Elt F)) :
    StableHlo.after hostOps1_3 (StableHlo.after hostOps1_2 (StableHlo.after hostOps1_1 (StableHlo.after hostOps1 V))) (Proc.devRef .tc main_arg1) = V (Proc.devRef .tc main_arg1) := by
  after_results_simp
theorem first_arg2 (V : Valuation τ sig (Elt F)) :
    StableHlo.after hostOps1_3 (StableHlo.after hostOps1_2 (StableHlo.after hostOps1_1 (StableHlo.after hostOps1 V))) (Proc.devRef .tc main_arg2) = V (Proc.devRef .tc main_arg2) := by
  after_results_simp
theorem first_arg5 (V : Valuation τ sig (Elt F)) :
    StableHlo.after hostOps1_3 (StableHlo.after hostOps1_2 (StableHlo.after hostOps1_1 (StableHlo.after hostOps1 V))) (Proc.devRef .tc main_arg5) = V (Proc.devRef .tc main_arg5) := by
  after_results_simp
theorem first_arg6 (V : Valuation τ sig (Elt F)) :
    StableHlo.after hostOps1_3 (StableHlo.after hostOps1_2 (StableHlo.after hostOps1_1 (StableHlo.after hostOps1 V))) (Proc.devRef .tc main_arg6) = V (Proc.devRef .tc main_arg6) := by
  after_results_simp
theorem first_arg7 (V : Valuation τ sig (Elt F)) :
    StableHlo.after hostOps1_3 (StableHlo.after hostOps1_2 (StableHlo.after hostOps1_1 (StableHlo.after hostOps1 V))) (Proc.devRef .tc main_arg7) = V (Proc.devRef .tc main_arg7) := by
  after_results_simp
theorem first_arg8 (V : Valuation τ sig (Elt F)) :
    StableHlo.after hostOps1_3 (StableHlo.after hostOps1_2 (StableHlo.after hostOps1_1 (StableHlo.after hostOps1 V))) (Proc.devRef .tc main_arg8) = V (Proc.devRef .tc main_arg8) := by
  after_results_simp
theorem first_arg9 (V : Valuation τ sig (Elt F)) :
    StableHlo.after hostOps1_3 (StableHlo.after hostOps1_2 (StableHlo.after hostOps1_1 (StableHlo.after hostOps1 V))) (Proc.devRef .tc main_arg9) = V (Proc.devRef .tc main_arg9) := by
  after_results_simp
theorem first_arg10 (V : Valuation τ sig (Elt F)) :
    StableHlo.after hostOps1_3 (StableHlo.after hostOps1_2 (StableHlo.after hostOps1_1 (StableHlo.after hostOps1 V))) (Proc.devRef .tc main_arg10) = V (Proc.devRef .tc main_arg10) := by
  after_results_simp

theorem second_arg1 (V : Valuation τ sig (Elt F)) :
    StableHlo.after hostOps2_3 (StableHlo.after hostOps2_2 (StableHlo.after hostOps2_1 (StableHlo.after hostOps2 V))) (Proc.devRef .tc main_arg1) = V (Proc.devRef .tc main_arg1) := by
  after_results_simp
theorem second_arg2 (V : Valuation τ sig (Elt F)) :
    StableHlo.after hostOps2_3 (StableHlo.after hostOps2_2 (StableHlo.after hostOps2_1 (StableHlo.after hostOps2 V))) (Proc.devRef .tc main_arg2) = V (Proc.devRef .tc main_arg2) := by
  after_results_simp
theorem second_arg7 (V : Valuation τ sig (Elt F)) :
    StableHlo.after hostOps2_3 (StableHlo.after hostOps2_2 (StableHlo.after hostOps2_1 (StableHlo.after hostOps2 V))) (Proc.devRef .tc main_arg7) = V (Proc.devRef .tc main_arg7) := by
  after_results_simp
theorem second_arg8 (V : Valuation τ sig (Elt F)) :
    StableHlo.after hostOps2_3 (StableHlo.after hostOps2_2 (StableHlo.after hostOps2_1 (StableHlo.after hostOps2 V))) (Proc.devRef .tc main_arg8) = V (Proc.devRef .tc main_arg8) := by
  after_results_simp
theorem second_arg9 (V : Valuation τ sig (Elt F)) :
    StableHlo.after hostOps2_3 (StableHlo.after hostOps2_2 (StableHlo.after hostOps2_1 (StableHlo.after hostOps2 V))) (Proc.devRef .tc main_arg9) = V (Proc.devRef .tc main_arg9) := by
  after_results_simp
theorem second_arg10 (V : Valuation τ sig (Elt F)) :
    StableHlo.after hostOps2_3 (StableHlo.after hostOps2_2 (StableHlo.after hostOps2_1 (StableHlo.after hostOps2 V))) (Proc.devRef .tc main_arg10) = V (Proc.devRef .tc main_arg10) := by
  after_results_simp

end Cert.KernelIdeal.Stretches

end
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.LibPlainProduct.lean ====
/-
  The matrix product as ONE function of its two operands, and the two spellings a program gives it.

  `prod l r` is the `M × N` array whose entry `(p, q)` is `∑ k, l (p, k) · r (k, q)`, a sum over the shared axis of
  extent `K`, taken over the extended reals.  A `tpu.matmul` into the zero accumulator and the host's `dot_general`,
  each carrying the dimension numbers of a plain product (`IsPlain`), are both `prod` of their operands — whatever the
  operands' float formats, and for the host whatever its schedule key.  So a kernel that multiplies row blocks and a
  reference that multiplies the whole array meet at `prod`: row `p` of the product depends on row `p` of the left
  operand only.
-/
import proofs.«136460_j27874337751415_1_alg».proof.Proof.LibMatmulPlain

noncomputable section

namespace Idealize.ShloMosaic.MatmulPlain

open Idealize.ShloMosaic Idealize.ShloMosaic.ValueIdx
open scoped BigOperators

variable {M N K : Nat} {D : DotDims ⟨2, ![M, K]⟩ ⟨2, ![K, N]⟩ ⟨2, ![M, N]⟩}

/-- The product of an `M × K` and a `K × N` array: entry `j` is the sum over the shared axis of the products of row
    `j 0` of the left operand with column `j 1` of the right one. -/
def prod {φ₁ φ₂ : FTy} (l : FVec Ideal ⟨2, ![M, K]⟩ φ₁) (r : FVec Ideal ⟨2, ![K, N]⟩ φ₂) : FVec Ideal ⟨2, ![M, N]⟩ .f32 :=
  fun j => ∑ k : Fin K, l (ix2 (j 0) k) * r (ix2 k (j 1))

theorem prod_apply {φ₁ φ₂ : FTy} (l : FVec Ideal ⟨2, ![M, K]⟩ φ₁) (r : FVec Ideal ⟨2, ![K, N]⟩ φ₂) (p : Fin M) (q : Fin N) :
    prod l r (ix2 p q) = ∑ k : Fin K, l (ix2 p k) * r (ix2 k q) := rfl

/-- The host's `dot_general` with a plain product's dimension numbers, read at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply, ← Equiv.sum_comp h.contrEquiv.symm]
  refine Finset.sum_congr rfl fun k _ => ?_
  rw [h.lhsIdx_eq, h.rhsIdx_eq]

/-- A `tpu.matmul` into the zero accumulator is the product. -/
theorem matmul_zero_eq_prod (h : IsPlain D) {φ₁ φ₂ : FTy} (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = prod l r := by
  funext j
  obtain ⟨p, q, rfl⟩ : ∃ (p : Fin M) (q : Fin N), j = ix2 p q := ⟨j 0, j 1, eq_ix2 j⟩
  exact matmul_zero_apply h prec l r p q

/-- The host's `dot_general` is the product. -/
theorem dotGeneral_eq_prod (h : IsPlain D) {φ₁ φ₂ : FTy} (prec : Option ContractPrecision) (sched : HostSchedule)
    (l : FVec Ideal ⟨2, ![M, K]⟩ φ₁) (r : FVec Ideal ⟨2, ![K, N]⟩ φ₂) :
    FloatOps.dotGeneral D prec sched l r = prod l r := by
  funext j
  obtain ⟨p, q, rfl⟩ : ∃ (p : Fin M) (q : Fin N), j = ix2 p q := ⟨j 0, j 1, eq_ix2 j⟩
  exact dotGeneral_apply h prec sched l r p q

/-- Row `p` of the product is the product of row `p`: if two left operands agree on a row (here: a row of a block and
    the row of the whole array it was cut from), the products agree on that row. -/
theorem prod_row_congr {M' : Nat} {φ₁ φ₁' φ₂ : FTy} (l : FVec Ideal ⟨2, ![M, K]⟩ φ₁) (l' : FVec Ideal ⟨2, ![M', K]⟩ φ₁')
    (r : FVec Ideal ⟨2, ![K, N]⟩ φ₂) (p : Fin M) (p' : Fin M') (q : Fin N)
    (hrow : ∀ k : Fin K, l (ix2 p k) = l' (ix2 p' k)) :
    prod l r (ix2 p q) = prod l' r (ix2 p' q) := by
  rw [prod_apply, prod_apply]
  exact Finset.sum_congr rfl fun k _ => by rw [hrow k]

end Idealize.ShloMosaic.MatmulPlain

end
-- ==== Proof.Network.lean ====
/-
  The whole network as ONE function of its eleven arguments, over the extended reals:

      h1 = max(conv(x · W1) + b1, 0),   h2 = max(conv(h1 · W2) + b2, 0),   h3 = conv(h2 · W3) + b3,
      out = mean-pool(h3) · Wl + bl,

  each `·` the plain matrix product `Σ_k l(p,k)·r(k,q)`, the convolutions and the pooling head the host functions of
  the graph's edge list and graph ids.  Both programs compute this function: the kernel with each product tiled
  by rows, the reference with each product whole.
-/
import proofs.«136460_j27874337751415_1_alg».proof.Proof.Layers
import proofs.«136460_j27874337751415_1_alg».proof.Proof.LibPlainProduct

noncomputable section

namespace Cert.KernelIdeal.Layers

open Cert.KernelIdeal Idealize.ShloMosaic Idealize.ShloMosaic.MatmulPlain

variable [Facts₀]

/-- The network's output for node features `x`, edge list `e`, graph ids `g`, and the four layers' weights and biases. -/
def network (x : (⟨S50000x512, .f32⟩ : BufTy).Contents (Elt Ideal)) (e : (⟨S2x800000, .i32⟩ : BufTy).Contents (Elt Ideal))
    (g : (⟨S50000, .i32⟩ : BufTy).Contents (Elt Ideal))
    (w1 : (⟨S512x256, .f32⟩ : BufTy).Contents (Elt Ideal)) (b1 : (⟨S256, .f32⟩ : BufTy).Contents (Elt Ideal))
    (w2 : (⟨S256x128, .f32⟩ : BufTy).Contents (Elt Ideal)) (b2 : (⟨S128, .f32⟩ : BufTy).Contents (Elt Ideal))
    (w3 : (⟨S128x64, .f32⟩ : BufTy).Contents (Elt Ideal)) (b3 : (⟨S64, .f32⟩ : BufTy).Contents (Elt Ideal))
    (wl : (⟨S64x2, .f32⟩ : BufTy).Contents (Elt Ideal)) (bl : (⟨S2, .f32⟩ : BufTy).Contents (Elt Ideal)) :
    (⟨S64x2, .f32⟩ : BufTy).Contents (Elt Ideal) :=
  head (F := Ideal) e g b3 wl bl
    (prod (M := 50000) (K := 128) (N := 64) (φ₁ := .f32) (φ₂ := .f32)
      (layer128 (F := Ideal) e b2
        (prod (M := 50000) (K := 256) (N := 128) (φ₁ := .f32) (φ₂ := .f32)
          (layer256 (F := Ideal) e b1 (prod (M := 50000) (K := 512) (N := 256) (φ₁ := .f32) (φ₂ := .f32) x w1))
          w2))
      w3)

end Cert.KernelIdeal.Layers

end
-- ==== Proof.LibProdEntries.lean ====
/-
  An entry of a matrix product depends on one row of the left operand and one column of the right one.

  If row `j 0` of `l` is row `j' 0` of `l'` and column `j 1` of `r` is column `j' 1` of `r'`, then entry `j` of
  `l · r` is entry `j'` of `l' · r'`: the two sums over the shared axis agree term by term.  This is how a product
  taken on a block of rows is read as a block of the product of the whole arrays.
-/
import proofs.«136460_j27874337751415_1_alg».proof.Proof.LibPlainProduct

noncomputable section

namespace Idealize.ShloMosaic.MatmulPlain

open Idealize.ShloMosaic Idealize.ShloMosaic.ValueIdx
open scoped BigOperators

/-- Entry `j` of `l · r` is entry `j'` of `l' · r'` when row `j 0` of `l` is row `j' 0` of `l'` and column `j 1` of `r` is
    column `j' 1` of `r'` (the operands may have different numbers of rows and of columns, and any float formats). -/
theorem prod_entry_congr {M M' K N N' : Nat} {φ₁ φ₁' φ₂ φ₂' : FTy}
    (l : FVec Ideal ⟨2, ![M, K]⟩ φ₁) (r : FVec Ideal ⟨2, ![K, N]⟩ φ₂)
    (l' : FVec Ideal ⟨2, ![M', K]⟩ φ₁') (r' : FVec Ideal ⟨2, ![K, N']⟩ φ₂')
    (j : (⟨2, ![M, N]⟩ : Shape).Idx) (j' : (⟨2, ![M', N']⟩ : Shape).Idx)
    (hl : ∀ k : Fin K, l (ix2 (j 0) k) = l' (ix2 (j' 0) k))
    (hr : ∀ k : Fin K, r (ix2 k (j 1)) = r' (ix2 k (j' 1))) :
    prod l r j = prod l' r' j' := by
  show ∑ k : Fin K, l (ix2 (j 0) k) * r (ix2 k (j 1)) = ∑ k : Fin K, l' (ix2 (j' 0) k) * r' (ix2 k (j' 1))
  exact Finset.sum_congr rfl fun k _ => by rw [hl k, hr k]

end Idealize.ShloMosaic.MatmulPlain

end
-- ==== Proof.TiledProduct0.lean ====
/-
  One row-tiled matrix product of the kernel's program (the first of three).

  The grid has 25 points.  Point `t` multiplies rows `2000·t … 2000·t + 1999` of the left array (a 2000 × 512 block)
  by the whole 512 × 256 right array and writes the 2000 × 256 product back as rows `2000·t …` of the output.  Over the
  extended reals the change of float format in front of the product is the identity, and a product into the zero
  block is the plain product `Σ_k l(p,k)·r(k,q)`.  Row `p` of a product depends on row `p` of the left operand only,
  so the block written at point `t` is block `t` of the product of the WHOLE arrays; the 25 blocks tile the 50000
  rows (the point that holds row `r` is `r / 2000`), so after the region the output array IS that product.
-/
import proofs.«136460_j27874337751415_1_alg».proof.Proof.Gen.KernelIdeal.Frame
import proofs.«136460_j27874337751415_1_alg».proof.Proof.LibProdEntries
import Idealize.ShloMosaic.Lib.Pipeline.Value
import Idealize.ShloMosaic.Lib.ValueIdx

set_option maxRecDepth 16384

noncomputable section

namespace Cert.KernelIdeal.Tiled0

open Cert.KernelIdeal Cert.KernelIdeal.Gen
open Idealize.ShloMosaic Idealize.ShloMosaic.TcCoe Idealize.ShloMosaic.ValueIdx Idealize.ShloMosaic.MatmulPlain
open Idealize.ShloMosaic.Pipeline (Dat Cfg Window)

-- the region's entry contents: any
variable (V : (c : Dev nD) → (b : Ref sig .tc) → Buf (Elt Ideal) ((c : Thread nD τ).loc b))

theorem origin : (![0, 0] : Fin 2 → Nat) = fun _ => 0 := funext fun a => by fin_cases a <;> rfl

/-- The body's dimension numbers are a plain product's. -/
theorem plain : IsPlain (M := 2000) (K := 512) (N := 256) dot_S2000x512_S512x256_S2000x256_1_0_0_1_n_n := ⟨rfl, rfl, rfl, rfl, rfl, rfl⟩

/-- What the body stores is the plain product of the two blocks it loads. -/
theorem stored_eq (x0 : Vec Ideal S2000x512 .f32) (x1 : Vec Ideal S512x256 .f32) :
    k0_pay1 (F := Ideal) x0 x1 = prod (M := 2000) (K := 512) (N := 256) (φ₁ := .f32) (φ₂ := .f32) x0 x1 := by
  unfold k0_pay1
  refine (matmul_zero_eq_prod plain none _ _).trans ?_
  funext j
  exact prod_entry_congr _ _ _ _ j j (fun _ => rfl) (fun _ => rfl)

/-- The printed index maps over the grid: the left block and the output block sit at block row `t`, block column 0;
    the right block is the whole array. -/
theorem blocks_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Left block `t`, entry `(p, k)`, is the left array's entry `(2000·t + p, k)`. -/
theorem left_block (c : Dev nD) (t : Fin cfg0.N) (p : Fin 2000) (k : Fin 512) (i : S50000x512.Idx)
    (h0 : (i 0).val = t.val * 2000 + p.val) (h1 : (i 1).val = k.val) :
    iblk0 V c 0 t (ix2 p k) = (V c (Pipeline.arrRef spec0 0) : S50000x512.Idx → EReal) i := by
  show (V c (Pipeline.arrRef spec0 0) : S50000x512.Idx → EReal) (((cfg0.win 0).blk t).view.emb (ix2 p k)) = _
  obtain ⟨e0, e1, -, -, -, -⟩ := blocks_at t
  congr 1
  funext a; apply Fin.ext
  match a with
  | ⟨0, _⟩ => show win0_0.index t (0 : Fin 2) * 2000 + 1 * p.val = (i 0).val; omega
  | ⟨1, _⟩ => show win0_0.index t (1 : Fin 2) * 512 + 1 * k.val = (i 1).val; omega

/-- The right block at any point is the whole right array. -/
theorem right_block (c : Dev nD) (t : Fin cfg0.N) (k : Fin 512) (q : Fin 256) :
    iblk0 V c 1 t (ix2 k q) = (V c (Pipeline.arrRef spec0 1) : S512x256.Idx → EReal) (ix2 k q) := by
  show (V c (Pipeline.arrRef spec0 1) : S512x256.Idx → EReal) (((cfg0.win 1).blk t).view.emb (ix2 k q)) = _
  obtain ⟨-, -, e2, e3, -, -⟩ := blocks_at t
  congr 1
  funext a; apply Fin.ext
  match a with
  | ⟨0, _⟩ => show win0_1.index t (0 : Fin 2) * 512 + 1 * k.val = k.val; omega
  | ⟨1, _⟩ => show win0_1.index t (1 : Fin 2) * 256 + 1 * q.val = q.val; omega

/-- The product of the whole arrays as the region finds them. -/
def whole (c : Dev nD) : S50000x256.Idx → EReal :=
  prod (M := 50000) (K := 512) (N := 256) (φ₁ := .f32) (φ₂ := .f32)
    (V c (Pipeline.arrRef spec0 0)) (V c (Pipeline.arrRef spec0 1))

/-- What point `t` writes back is block `t` of the whole arrays' product. -/
theorem written_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero origin]
  simp only [View.ld_unit_zero (S := S2000x512) origin, View.ld_unit_zero (S := S512x256) origin]
  rw [stored_eq]
  funext j
  obtain ⟨-, -, -, -, e4, e5⟩ := blocks_at t
  show prod (M := 2000) (K := 512) (N := 256) (φ₁ := .f32) (φ₂ := .f32) (iblk0 V c 0 t) (iblk0 V c 1 t) j
    = whole V c (((cfg0.win 2).blk t).view.emb j)
  unfold whole
  refine prod_entry_congr _ _ _ _ j _ (fun k => ?_) (fun k => ?_)
  · refine left_block V c t (j 0) k _ ?_ rfl
    show win0_2.index t (0 : Fin 2) * 2000 + 1 * (j 0).val = _; omega
  · refine (right_block V c t k (j 1)).trans (congrArg _ ?_)
    funext a; apply Fin.ext
    match a with
    | ⟨0, _⟩ => rfl
    | ⟨1, _⟩ => show (j 1).val = win0_2.index t (1 : Fin 2) * 256 + 1 * (j 1).val; omega

/-- An index of the output array is in point `t`'s block iff each coordinate is in the block's range on its axis. -/
theorem mem_block (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- The 25 blocks tile the 50000 rows: row `r` is in the block of point `r / 2000`. -/
theorem tiled (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_2 _, ?_⟩
  rw [mem_block]
  obtain ⟨-, -, -, -, e4, e5⟩ := blocks_at ⟨(i 0).val / 2000, by rw [hN]; omega⟩
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ (i 0).val ∧ (i 0).val < (i 0).val / 2000 * 2000 + 2000; omega
  | ⟨1, _⟩ => show win0_2.index _ (1 : Fin 2) * 256 ≤ (i 1).val ∧ (i 1).val < win0_2.index _ (1 : Fin 2) * 256 + 256; rw [e5]; omega

/-- After the region the output array is the product of the whole arrays as the region found them. -/
theorem output_eq (c : Dev nD) : (dat0 V c).arrAt 2 cfg0.N = whole V c :=
  (dat0 V c).arrAt_eq_of_cover 2 (whole V c) (fun t _ => written_eq V c t) (tiled)

end Cert.KernelIdeal.Tiled0

end
-- ==== Proof.TiledProduct1.lean ====
/-
  One row-tiled matrix product of the kernel's program (the second of three).

  The grid has 25 points.  Point `t` multiplies rows `2000·t … 2000·t + 1999` of the left array (a 2000 × 256 block)
  by the whole 256 × 128 right array and writes the 2000 × 128 product back as rows `2000·t …` of the output.  Over the
  extended reals the change of float format in front of the product is the identity, and a product into the zero
  block is the plain product `Σ_k l(p,k)·r(k,q)`.  Row `p` of a product depends on row `p` of the left operand only,
  so the block written at point `t` is block `t` of the product of the WHOLE arrays; the 25 blocks tile the 50000
  rows (the point that holds row `r` is `r / 2000`), so after the region the output array IS that product.
-/
import proofs.«136460_j27874337751415_1_alg».proof.Proof.Gen.KernelIdeal.Frame
import proofs.«136460_j27874337751415_1_alg».proof.Proof.LibProdEntries
import Idealize.ShloMosaic.Lib.Pipeline.Value
import Idealize.ShloMosaic.Lib.ValueIdx

set_option maxRecDepth 16384

noncomputable section

namespace Cert.KernelIdeal.Tiled1

open Cert.KernelIdeal Cert.KernelIdeal.Gen
open Idealize.ShloMosaic Idealize.ShloMosaic.TcCoe Idealize.ShloMosaic.ValueIdx Idealize.ShloMosaic.MatmulPlain
open Idealize.ShloMosaic.Pipeline (Dat Cfg Window)

-- the region's entry contents: any
variable (V : (c : Dev nD) → (b : Ref sig .tc) → Buf (Elt Ideal) ((c : Thread nD τ).loc b))

theorem origin : (![0, 0] : Fin 2 → Nat) = fun _ => 0 := funext fun a => by fin_cases a <;> rfl

/-- The body's dimension numbers are a plain product's. -/
theorem plain : IsPlain (M := 2000) (K := 256) (N := 128) dot_S2000x256_S256x128_S2000x128_1_0_0_1_n_n := ⟨rfl, rfl, rfl, rfl, rfl, rfl⟩

/-- What the body stores is the plain product of the two blocks it loads. -/
theorem stored_eq (x0 : Vec Ideal S2000x256 .f32) (x1 : Vec Ideal S256x128 .f32) :
    k1_pay1 (F := Ideal) x0 x1 = prod (M := 2000) (K := 256) (N := 128) (φ₁ := .f32) (φ₂ := .f32) x0 x1 := by
  unfold k1_pay1
  dsimp only
  rw [shapeCast_self]
  refine (matmul_zero_eq_prod plain none _ _).trans ?_
  funext j
  exact prod_entry_congr _ _ _ _ j j (fun _ => rfl) (fun _ => rfl)

/-- The printed index maps over the grid: the left block and the output block sit at block row `t`, block column 0;
    the right block is the whole array. -/
theorem blocks_at : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Left block `t`, entry `(p, k)`, is the left array's entry `(2000·t + p, k)`. -/
theorem left_block (c : Dev nD) (t : Fin cfg1.N) (p : Fin 2000) (k : Fin 256) (i : S50000x256.Idx)
    (h0 : (i 0).val = t.val * 2000 + p.val) (h1 : (i 1).val = k.val) :
    iblk1 V c 0 t (ix2 p k) = (V c (Pipeline.arrRef spec1 0) : S50000x256.Idx → EReal) i := by
  show (V c (Pipeline.arrRef spec1 0) : S50000x256.Idx → EReal) (((cfg1.win 0).blk t).view.emb (ix2 p k)) = _
  obtain ⟨e0, e1, -, -, -, -⟩ := blocks_at t
  congr 1
  funext a; apply Fin.ext
  match a with
  | ⟨0, _⟩ => show win1_0.index t (0 : Fin 2) * 2000 + 1 * p.val = (i 0).val; omega
  | ⟨1, _⟩ => show win1_0.index t (1 : Fin 2) * 256 + 1 * k.val = (i 1).val; omega

/-- The right block at any point is the whole right array. -/
theorem right_block (c : Dev nD) (t : Fin cfg1.N) (k : Fin 256) (q : Fin 128) :
    iblk1 V c 1 t (ix2 k q) = (V c (Pipeline.arrRef spec1 1) : S256x128.Idx → EReal) (ix2 k q) := by
  show (V c (Pipeline.arrRef spec1 1) : S256x128.Idx → EReal) (((cfg1.win 1).blk t).view.emb (ix2 k q)) = _
  obtain ⟨-, -, e2, e3, -, -⟩ := blocks_at t
  congr 1
  funext a; apply Fin.ext
  match a with
  | ⟨0, _⟩ => show win1_1.index t (0 : Fin 2) * 256 + 1 * k.val = k.val; omega
  | ⟨1, _⟩ => show win1_1.index t (1 : Fin 2) * 128 + 1 * q.val = q.val; omega

/-- The product of the whole arrays as the region finds them. -/
def whole (c : Dev nD) : S50000x128.Idx → EReal :=
  prod (M := 50000) (K := 256) (N := 128) (φ₁ := .f32) (φ₂ := .f32)
    (V c (Pipeline.arrRef spec1 0)) (V c (Pipeline.arrRef spec1 1))

/-- What point `t` writes back is block `t` of the whole arrays' product. -/
theorem written_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero origin]
  simp only [View.ld_unit_zero (S := S2000x256) origin, View.ld_unit_zero (S := S256x128) origin]
  rw [stored_eq]
  funext j
  obtain ⟨-, -, -, -, e4, e5⟩ := blocks_at t
  show prod (M := 2000) (K := 256) (N := 128) (φ₁ := .f32) (φ₂ := .f32) (iblk1 V c 0 t) (iblk1 V c 1 t) j
    = whole V c (((cfg1.win 2).blk t).view.emb j)
  unfold whole
  refine prod_entry_congr _ _ _ _ j _ (fun k => ?_) (fun k => ?_)
  · refine left_block V c t (j 0) k _ ?_ rfl
    show win1_2.index t (0 : Fin 2) * 2000 + 1 * (j 0).val = _; omega
  · refine (right_block V c t k (j 1)).trans (congrArg _ ?_)
    funext a; apply Fin.ext
    match a with
    | ⟨0, _⟩ => rfl
    | ⟨1, _⟩ => show (j 1).val = win1_2.index t (1 : Fin 2) * 128 + 1 * (j 1).val; omega

/-- An index of the output array is in point `t`'s block iff each coordinate is in the block's range on its axis. -/
theorem mem_block (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v48).slice (win1_2.rect t)).set ↔ _
  rw [View.set_slice_whole, Rect.mem_set_unit]
  exact Iff.rfl

/-- The 25 blocks tile the 50000 rows: row `r` is in the block of point `r / 2000`. -/
theorem tiled (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_2 _, ?_⟩
  rw [mem_block]
  obtain ⟨-, -, -, -, e4, e5⟩ := blocks_at ⟨(i 0).val / 2000, by rw [hN]; omega⟩
  intro a
  match a with
  | ⟨0, _⟩ => show win1_2.index _ (0 : Fin 2) * 2000 ≤ (i 0).val ∧ (i 0).val < win1_2.index _ (0 : Fin 2) * 2000 + 2000; rw [e4]; show (i 0).val / 2000 * 2000 ≤ (i 0).val ∧ (i 0).val < (i 0).val / 2000 * 2000 + 2000; omega
  | ⟨1, _⟩ => show win1_2.index _ (1 : Fin 2) * 128 ≤ (i 1).val ∧ (i 1).val < win1_2.index _ (1 : Fin 2) * 128 + 128; rw [e5]; omega

/-- After the region the output array is the product of the whole arrays as the region found them. -/
theorem output_eq (c : Dev nD) : (dat1 V c).arrAt 2 cfg1.N = whole V c :=
  (dat1 V c).arrAt_eq_of_cover 2 (whole V c) (fun t _ => written_eq V c t) (tiled)

end Cert.KernelIdeal.Tiled1

end
-- ==== Proof.TiledProduct2.lean ====
/-
  One row-tiled matrix product of the kernel's program (the third of three).

  The grid has 25 points.  Point `t` multiplies rows `2000·t … 2000·t + 1999` of the left array (a 2000 × 128 block)
  by the whole 128 × 64 right array and writes the 2000 × 64 product back as rows `2000·t …` of the output.  Over the
  extended reals the change of float format in front of the product is the identity, and a product into the zero
  block is the plain product `Σ_k l(p,k)·r(k,q)`.  Row `p` of a product depends on row `p` of the left operand only,
  so the block written at point `t` is block `t` of the product of the WHOLE arrays; the 25 blocks tile the 50000
  rows (the point that holds row `r` is `r / 2000`), so after the region the output array IS that product.
-/
import proofs.«136460_j27874337751415_1_alg».proof.Proof.Gen.KernelIdeal.Frame
import proofs.«136460_j27874337751415_1_alg».proof.Proof.LibProdEntries
import Idealize.ShloMosaic.Lib.Pipeline.Value
import Idealize.ShloMosaic.Lib.ValueIdx

set_option maxRecDepth 16384

noncomputable section

namespace Cert.KernelIdeal.Tiled2

open Cert.KernelIdeal Cert.KernelIdeal.Gen
open Idealize.ShloMosaic Idealize.ShloMosaic.TcCoe Idealize.ShloMosaic.ValueIdx Idealize.ShloMosaic.MatmulPlain
open Idealize.ShloMosaic.Pipeline (Dat Cfg Window)

-- the region's entry contents: any
variable (V : (c : Dev nD) → (b : Ref sig .tc) → Buf (Elt Ideal) ((c : Thread nD τ).loc b))

theorem origin : (![0, 0] : Fin 2 → Nat) = fun _ => 0 := funext fun a => by fin_cases a <;> rfl

/-- The body's dimension numbers are a plain product's. -/
theorem plain : IsPlain (M := 2000) (K := 128) (N := 64) dot_S2000x128_S128x64_S2000x64_1_0_0_1_n_n := ⟨rfl, rfl, rfl, rfl, rfl, rfl⟩

/-- What the body stores is the plain product of the two blocks it loads. -/
theorem stored_eq (x0 : Vec Ideal S2000x128 .f32) (x1 : Vec Ideal S128x64 .f32) :
    k2_pay1 (F := Ideal) x0 x1 = prod (M := 2000) (K := 128) (N := 64) (φ₁ := .f32) (φ₂ := .f32) x0 x1 := by
  unfold k2_pay1
  dsimp only
  rw [shapeCast_self]
  refine (matmul_zero_eq_prod plain none _ _).trans ?_
  funext j
  exact prod_entry_congr _ _ _ _ j j (fun _ => rfl) (fun _ => rfl)

/-- The printed index maps over the grid: the left block and the output block sit at block row `t`, block column 0;
    the right block is the whole array. -/
theorem blocks_at : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Left block `t`, entry `(p, k)`, is the left array's entry `(2000·t + p, k)`. -/
theorem left_block (c : Dev nD) (t : Fin cfg2.N) (p : Fin 2000) (k : Fin 128) (i : S50000x128.Idx)
    (h0 : (i 0).val = t.val * 2000 + p.val) (h1 : (i 1).val = k.val) :
    iblk2 V c 0 t (ix2 p k) = (V c (Pipeline.arrRef spec2 0) : S50000x128.Idx → EReal) i := by
  show (V c (Pipeline.arrRef spec2 0) : S50000x128.Idx → EReal) (((cfg2.win 0).blk t).view.emb (ix2 p k)) = _
  obtain ⟨e0, e1, -, -, -, -⟩ := blocks_at t
  congr 1
  funext a; apply Fin.ext
  match a with
  | ⟨0, _⟩ => show win2_0.index t (0 : Fin 2) * 2000 + 1 * p.val = (i 0).val; omega
  | ⟨1, _⟩ => show win2_0.index t (1 : Fin 2) * 128 + 1 * k.val = (i 1).val; omega

/-- The right block at any point is the whole right array. -/
theorem right_block (c : Dev nD) (t : Fin cfg2.N) (k : Fin 128) (q : Fin 64) :
    iblk2 V c 1 t (ix2 k q) = (V c (Pipeline.arrRef spec2 1) : S128x64.Idx → EReal) (ix2 k q) := by
  show (V c (Pipeline.arrRef spec2 1) : S128x64.Idx → EReal) (((cfg2.win 1).blk t).view.emb (ix2 k q)) = _
  obtain ⟨-, -, e2, e3, -, -⟩ := blocks_at t
  congr 1
  funext a; apply Fin.ext
  match a with
  | ⟨0, _⟩ => show win2_1.index t (0 : Fin 2) * 128 + 1 * k.val = k.val; omega
  | ⟨1, _⟩ => show win2_1.index t (1 : Fin 2) * 64 + 1 * q.val = q.val; omega

/-- The product of the whole arrays as the region finds them. -/
def whole (c : Dev nD) : S50000x64.Idx → EReal :=
  prod (M := 50000) (K := 128) (N := 64) (φ₁ := .f32) (φ₂ := .f32)
    (V c (Pipeline.arrRef spec2 0)) (V c (Pipeline.arrRef spec2 1))

/-- What point `t` writes back is block `t` of the whole arrays' product. -/
theorem written_eq (c : Dev nD) (t : Fin cfg2.N) :
    (dat2 V c).flushed 2 t = ((cfg2.win 2).blk t).view.read (Elt Ideal) (whole V c) := by
  show (cfg2.win 2).cut (grid2.coords t) ((dat2 V c).after 2 t) = _
  rw [after2_2]
  unfold out2_2
  rw [View.canon_unit_zero origin]
  simp only [View.ld_unit_zero (S := S2000x128) origin, View.ld_unit_zero (S := S128x64) origin]
  rw [stored_eq]
  funext j
  obtain ⟨-, -, -, -, e4, e5⟩ := blocks_at t
  show prod (M := 2000) (K := 128) (N := 64) (φ₁ := .f32) (φ₂ := .f32) (iblk2 V c 0 t) (iblk2 V c 1 t) j
    = whole V c (((cfg2.win 2).blk t).view.emb j)
  unfold whole
  refine prod_entry_congr _ _ _ _ j _ (fun k => ?_) (fun k => ?_)
  · refine left_block V c t (j 0) k _ ?_ rfl
    show win2_2.index t (0 : Fin 2) * 2000 + 1 * (j 0).val = _; omega
  · refine (right_block V c t k (j 1)).trans (congrArg _ ?_)
    funext a; apply Fin.ext
    match a with
    | ⟨0, _⟩ => rfl
    | ⟨1, _⟩ => show (j 1).val = win2_2.index t (1 : Fin 2) * 64 + 1 * (j 1).val; omega

/-- An index of the output array is in point `t`'s block iff each coordinate is in the block's range on its axis. -/
theorem mem_block (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v96).slice (win2_2.rect t)).set ↔ _
  rw [View.set_slice_whole, Rect.mem_set_unit]
  exact Iff.rfl

/-- The 25 blocks tile the 50000 rows: row `r` is in the block of point `r / 2000`. -/
theorem tiled (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 25 := N_2
  refine ⟨⟨(i 0).val / 2000, by rw [hN]; omega⟩, flush2_2 _, ?_⟩
  rw [mem_block]
  obtain ⟨-, -, -, -, e4, e5⟩ := blocks_at ⟨(i 0).val / 2000, by rw [hN]; omega⟩
  intro a
  match a with
  | ⟨0, _⟩ => show win2_2.index _ (0 : Fin 2) * 2000 ≤ (i 0).val ∧ (i 0).val < win2_2.index _ (0 : Fin 2) * 2000 + 2000; rw [e4]; show (i 0).val / 2000 * 2000 ≤ (i 0).val ∧ (i 0).val < (i 0).val / 2000 * 2000 + 2000; omega
  | ⟨1, _⟩ => show win2_2.index _ (1 : Fin 2) * 64 ≤ (i 1).val ∧ (i 1).val < win2_2.index _ (1 : Fin 2) * 64 + 64; rw [e5]; omega

/-- After the region the output array is the product of the whole arrays as the region found them. -/
theorem output_eq (c : Dev nD) : (dat2 V c).arrAt 2 cfg2.N = whole V c :=
  (dat2 V c).arrAt_eq_of_cover 2 (whole V c) (fun t _ => written_eq V c t) (tiled)

end Cert.KernelIdeal.Tiled2

end
-- ==== Proof.KernelValue.lean ====
/-
  What the kernel's program leaves in its result buffer: the network's function of the arguments as launched.

  The buffer contents are followed boundary by boundary.  After the first tiled product its output array holds
  the product of the node features and the first weight matrix; the first host stretch turns that into the first
  layer's output; the second tiled product multiplies it by the second weight matrix; and so on to the pooling
  head.  At every boundary each argument still holds its launch contents: a host stretch writes only values of
  its own, and a product's region changes only its output array.
-/
import proofs.«136460_j27874337751415_1_alg».proof.Proof.Gen.KernelIdeal.Frame
import proofs.«136460_j27874337751415_1_alg».proof.Proof.HostStretches
import proofs.«136460_j27874337751415_1_alg».proof.Proof.Network
import proofs.«136460_j27874337751415_1_alg».proof.Proof.TiledProduct0
import proofs.«136460_j27874337751415_1_alg».proof.Proof.TiledProduct1
import proofs.«136460_j27874337751415_1_alg».proof.Proof.TiledProduct2

set_option maxRecDepth 16384

noncomputable section

namespace Cert.KernelIdeal.Whole

open Cert.KernelIdeal Cert.KernelIdeal.Gen Cert.KernelIdeal.Layers
open Idealize.ShloMosaic Idealize.ShloMosaic.TcCoe Idealize.ShloMosaic.MatmulPlain Idealize.SL.Sem

variable (m : (ℓ : Loc nD τ sig) → Buf (Elt Ideal) ℓ) (ρ : Dev nD → PrngReg) (c : Dev nD)

/-! ## The arguments at each boundary -/

theorem at1_arg1 : W1 m ρ c (Proc.devRef .tc main_arg1) = (m ((c.tc : Thread nD τ).loc main_arg1)) :=
  W1_of_ne m ρ c main_arg1 (by decide)
theorem at1_arg2 : W1 m ρ c (Proc.devRef .tc main_arg2) = (m ((c.tc : Thread nD τ).loc main_arg2)) :=
  W1_of_ne m ρ c main_arg2 (by decide)
theorem at1_arg4 : W1 m ρ c (Proc.devRef .tc main_arg4) = (m ((c.tc : Thread nD τ).loc main_arg4)) :=
  W1_of_ne m ρ c main_arg4 (by decide)
theorem at1_arg5 : W1 m ρ c (Proc.devRef .tc main_arg5) = (m ((c.tc : Thread nD τ).loc main_arg5)) :=
  W1_of_ne m ρ c main_arg5 (by decide)
theorem at1_arg6 : W1 m ρ c (Proc.devRef .tc main_arg6) = (m ((c.tc : Thread nD τ).loc main_arg6)) :=
  W1_of_ne m ρ c main_arg6 (by decide)
theorem at1_arg7 : W1 m ρ c (Proc.devRef .tc main_arg7) = (m ((c.tc : Thread nD τ).loc main_arg7)) :=
  W1_of_ne m ρ c main_arg7 (by decide)
theorem at1_arg8 : W1 m ρ c (Proc.devRef .tc main_arg8) = (m ((c.tc : Thread nD τ).loc main_arg8)) :=
  W1_of_ne m ρ c main_arg8 (by decide)
theorem at1_arg9 : W1 m ρ c (Proc.devRef .tc main_arg9) = (m ((c.tc : Thread nD τ).loc main_arg9)) :=
  W1_of_ne m ρ c main_arg9 (by decide)
theorem at1_arg10 : W1 m ρ c (Proc.devRef .tc main_arg10) = (m ((c.tc : Thread nD τ).loc main_arg10)) :=
  W1_of_ne m ρ c main_arg10 (by decide)

theorem at5_arg1 : W5 m ρ c (Proc.devRef .tc main_arg1) = (m ((c.tc : Thread nD τ).loc main_arg1)) :=
  (Stretches.first_arg1 (W1 m ρ c)).trans (at1_arg1 m ρ c)
theorem at5_arg2 : W5 m ρ c (Proc.devRef .tc main_arg2) = (m ((c.tc : Thread nD τ).loc main_arg2)) :=
  (Stretches.first_arg2 (W1 m ρ c)).trans (at1_arg2 m ρ c)
theorem at5_arg5 : W5 m ρ c (Proc.devRef .tc main_arg5) = (m ((c.tc : Thread nD τ).loc main_arg5)) :=
  (Stretches.first_arg5 (W1 m ρ c)).trans (at1_arg5 m ρ c)
theorem at5_arg6 : W5 m ρ c (Proc.devRef .tc main_arg6) = (m ((c.tc : Thread nD τ).loc main_arg6)) :=
  (Stretches.first_arg6 (W1 m ρ c)).trans (at1_arg6 m ρ c)
theorem at5_arg7 : W5 m ρ c (Proc.devRef .tc main_arg7) = (m ((c.tc : Thread nD τ).loc main_arg7)) :=
  (Stretches.first_arg7 (W1 m ρ c)).trans (at1_arg7 m ρ c)
theorem at5_arg8 : W5 m ρ c (Proc.devRef .tc main_arg8) = (m ((c.tc : Thread nD τ).loc main_arg8)) :=
  (Stretches.first_arg8 (W1 m ρ c)).trans (at1_arg8 m ρ c)
theorem at5_arg9 : W5 m ρ c (Proc.devRef .tc main_arg9) = (m ((c.tc : Thread nD τ).loc main_arg9)) :=
  (Stretches.first_arg9 (W1 m ρ c)).trans (at1_arg9 m ρ c)
theorem at5_arg10 : W5 m ρ c (Proc.devRef .tc main_arg10) = (m ((c.tc : Thread nD τ).loc main_arg10)) :=
  (Stretches.first_arg10 (W1 m ρ c)).trans (at1_arg10 m ρ c)

theorem at6_arg1 : W6 m ρ c (Proc.devRef .tc main_arg1) = (m ((c.tc : Thread nD τ).loc main_arg1)) :=
  (W6_of_ne m ρ c main_arg1 (by decide)).trans (at5_arg1 m ρ c)
theorem at6_arg2 : W6 m ρ c (Proc.devRef .tc main_arg2) = (m ((c.tc : Thread nD τ).loc main_arg2)) :=
  (W6_of_ne m ρ c main_arg2 (by decide)).trans (at5_arg2 m ρ c)
theorem at6_arg6 : W6 m ρ c (Proc.devRef .tc main_arg6) = (m ((c.tc : Thread nD τ).loc main_arg6)) :=
  (W6_of_ne m ρ c main_arg6 (by decide)).trans (at5_arg6 m ρ c)
theorem at6_arg7 : W6 m ρ c (Proc.devRef .tc main_arg7) = (m ((c.tc : Thread nD τ).loc main_arg7)) :=
  (W6_of_ne m ρ c main_arg7 (by decide)).trans (at5_arg7 m ρ c)
theorem at6_arg8 : W6 m ρ c (Proc.devRef .tc main_arg8) = (m ((c.tc : Thread nD τ).loc main_arg8)) :=
  (W6_of_ne m ρ c main_arg8 (by decide)).trans (at5_arg8 m ρ c)
theorem at6_arg9 : W6 m ρ c (Proc.devRef .tc main_arg9) = (m ((c.tc : Thread nD τ).loc main_arg9)) :=
  (W6_of_ne m ρ c main_arg9 (by decide)).trans (at5_arg9 m ρ c)
theorem at6_arg10 : W6 m ρ c (Proc.devRef .tc main_arg10) = (m ((c.tc : Thread nD τ).loc main_arg10)) :=
  (W6_of_ne m ρ c main_arg10 (by decide)).trans (at5_arg10 m ρ c)

theorem at10_arg1 : W10 m ρ c (Proc.devRef .tc main_arg1) = (m ((c.tc : Thread nD τ).loc main_arg1)) :=
  (Stretches.second_arg1 (W6 m ρ c)).trans (at6_arg1 m ρ c)
theorem at10_arg2 : W10 m ρ c (Proc.devRef .tc main_arg2) = (m ((c.tc : Thread nD τ).loc main_arg2)) :=
  (Stretches.second_arg2 (W6 m ρ c)).trans (at6_arg2 m ρ c)
theorem at10_arg7 : W10 m ρ c (Proc.devRef .tc main_arg7) = (m ((c.tc : Thread nD τ).loc main_arg7)) :=
  (Stretches.second_arg7 (W6 m ρ c)).trans (at6_arg7 m ρ c)
theorem at10_arg8 : W10 m ρ c (Proc.devRef .tc main_arg8) = (m ((c.tc : Thread nD τ).loc main_arg8)) :=
  (Stretches.second_arg8 (W6 m ρ c)).trans (at6_arg8 m ρ c)
theorem at10_arg9 : W10 m ρ c (Proc.devRef .tc main_arg9) = (m ((c.tc : Thread nD τ).loc main_arg9)) :=
  (Stretches.second_arg9 (W6 m ρ c)).trans (at6_arg9 m ρ c)
theorem at10_arg10 : W10 m ρ c (Proc.devRef .tc main_arg10) = (m ((c.tc : Thread nD τ).loc main_arg10)) :=
  (Stretches.second_arg10 (W6 m ρ c)).trans (at6_arg10 m ρ c)

theorem at11_arg1 : W11 m ρ c (Proc.devRef .tc main_arg1) = (m ((c.tc : Thread nD τ).loc main_arg1)) :=
  (W11_of_ne m ρ c main_arg1 (by decide)).trans (at10_arg1 m ρ c)
theorem at11_arg2 : W11 m ρ c (Proc.devRef .tc main_arg2) = (m ((c.tc : Thread nD τ).loc main_arg2)) :=
  (W11_of_ne m ρ c main_arg2 (by decide)).trans (at10_arg2 m ρ c)
theorem at11_arg8 : W11 m ρ c (Proc.devRef .tc main_arg8) = (m ((c.tc : Thread nD τ).loc main_arg8)) :=
  (W11_of_ne m ρ c main_arg8 (by decide)).trans (at10_arg8 m ρ c)
theorem at11_arg9 : W11 m ρ c (Proc.devRef .tc main_arg9) = (m ((c.tc : Thread nD τ).loc main_arg9)) :=
  (W11_of_ne m ρ c main_arg9 (by decide)).trans (at10_arg9 m ρ c)
theorem at11_arg10 : W11 m ρ c (Proc.devRef .tc main_arg10) = (m ((c.tc : Thread nD τ).loc main_arg10)) :=
  (W11_of_ne m ρ c main_arg10 (by decide)).trans (at10_arg10 m ρ c)

/-! ## The values, boundary by boundary -/

/-- After the first tiled product: `x · W1`. -/
theorem after_product1 : W1 m ρ c (Proc.devRef .tc main_v0)
    = prod (M := 50000) (K := 512) (N := 256) (φ₁ := .f32) (φ₂ := .f32) (m ((c.tc : Thread nD τ).loc main_arg0)) (m ((c.tc : Thread nD τ).loc main_arg3)) :=
  (W1_arr m ρ c 2).trans (Tiled0.output_eq (V0 m ρ) c)

/-- After the first host stretch: the first layer's output. -/
theorem after_layer1 : W5 m ρ c (Proc.devRef .tc main_v47)
    = layer256 (F := Ideal) (m ((c.tc : Thread nD τ).loc main_arg1)) (m ((c.tc : Thread nD τ).loc main_arg4))
        (prod (M := 50000) (K := 512) (N := 256) (φ₁ := .f32) (φ₂ := .f32) (m ((c.tc : Thread nD τ).loc main_arg0)) (m ((c.tc : Thread nD τ).loc main_arg3))) := by
  refine (Stretches.first_eq (W1 m ρ c)).trans ?_
  rw [at1_arg1, at1_arg4, after_product1]

/-- After the second tiled product: the first layer's output times `W2`. -/
theorem after_product2 : W6 m ρ c (Proc.devRef .tc main_v48)
    = prod (M := 50000) (K := 256) (N := 128) (φ₁ := .f32) (φ₂ := .f32)
        (layer256 (F := Ideal) (m ((c.tc : Thread nD τ).loc main_arg1)) (m ((c.tc : Thread nD τ).loc main_arg4))
          (prod (M := 50000) (K := 512) (N := 256) (φ₁ := .f32) (φ₂ := .f32) (m ((c.tc : Thread nD τ).loc main_arg0)) (m ((c.tc : Thread nD τ).loc main_arg3)))) (m ((c.tc : Thread nD τ).loc main_arg5)) := by
  refine ((W6_arr m ρ c 2).trans (Tiled1.output_eq (V5 m ρ) c)).trans ?_
  show prod (M := 50000) (K := 256) (N := 128) (φ₁ := .f32) (φ₂ := .f32)
      (W5 m ρ c (Proc.devRef .tc main_v47)) (W5 m ρ c (Proc.devRef .tc main_arg5)) = _
  rw [after_layer1, at5_arg5]

/-- After the second host stretch: the second layer's output. -/
theorem after_layer2 : W10 m ρ c (Proc.devRef .tc main_v95)
    = layer128 (F := Ideal) (m ((c.tc : Thread nD τ).loc main_arg1)) (m ((c.tc : Thread nD τ).loc main_arg6))
        (prod (M := 50000) (K := 256) (N := 128) (φ₁ := .f32) (φ₂ := .f32)
          (layer256 (F := Ideal) (m ((c.tc : Thread nD τ).loc main_arg1)) (m ((c.tc : Thread nD τ).loc main_arg4))
            (prod (M := 50000) (K := 512) (N := 256) (φ₁ := .f32) (φ₂ := .f32) (m ((c.tc : Thread nD τ).loc main_arg0)) (m ((c.tc : Thread nD τ).loc main_arg3)))) (m ((c.tc : Thread nD τ).loc main_arg5))) := by
  refine (Stretches.second_eq (W6 m ρ c)).trans ?_
  rw [at6_arg1, at6_arg6, after_product2]

/-- After the third tiled product: the second layer's output times `W3`. -/
theorem after_product3 : W11 m ρ c (Proc.devRef .tc main_v96)
    = prod (M := 50000) (K := 128) (N := 64) (φ₁ := .f32) (φ₂ := .f32)
        (layer128 (F := Ideal) (m ((c.tc : Thread nD τ).loc main_arg1)) (m ((c.tc : Thread nD τ).loc main_arg6))
          (prod (M := 50000) (K := 256) (N := 128) (φ₁ := .f32) (φ₂ := .f32)
            (layer256 (F := Ideal) (m ((c.tc : Thread nD τ).loc main_arg1)) (m ((c.tc : Thread nD τ).loc main_arg4))
              (prod (M := 50000) (K := 512) (N := 256) (φ₁ := .f32) (φ₂ := .f32) (m ((c.tc : Thread nD τ).loc main_arg0)) (m ((c.tc : Thread nD τ).loc main_arg3)))) (m ((c.tc : Thread nD τ).loc main_arg5)))) (m ((c.tc : Thread nD τ).loc main_arg7)) := by
  refine ((W11_arr m ρ c 2).trans (Tiled2.output_eq (V10 m ρ) c)).trans ?_
  show prod (M := 50000) (K := 128) (N := 64) (φ₁ := .f32) (φ₂ := .f32)
      (W10 m ρ c (Proc.devRef .tc main_v95)) (W10 m ρ c (Proc.devRef .tc main_arg7)) = _
  rw [after_layer2, at10_arg7]

/-- The result buffer at the last boundary: the network's function of the arguments as launched. -/
theorem result_eq : W14 m ρ c (Proc.devRef .tc main_v158)
    = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (Stretches.third_eq (W11 m ρ c)).trans ?_
  rw [at11_arg1, at11_arg2, at11_arg8, at11_arg9, at11_arg10, after_product3]
  rfl

end Cert.KernelIdeal.Whole

end
-- ==== Proof.ReferenceValue.lean ====
/-
  What the reference program leaves in its result buffer: the network's function of the arguments as launched.

  The reference is one line of host operations.  Its result is the pooling head of the third convolution of the
  second layer of the first layer, each layer applied to a whole matrix product `dot_general`.  The host operations
  between the products are, word for word, the functions `layer256`, `layer128` and `head` (the same dimension
  numbers, the same literals), and over the extended reals a `dot_general` with a plain product's dimension
  numbers is the plain product `Σ_k l(p,k)·r(k,q)`.
-/
import proofs.«136460_j27874337751415_1_alg».proof.Proof.ReferenceRun
import proofs.«136460_j27874337751415_1_alg».proof.Proof.Gen.KernelIdeal
import proofs.«136460_j27874337751415_1_alg».proof.Proof.Network

set_option maxRecDepth 16384

noncomputable section

namespace Cert.ReferenceIdeal.Whole

open Cert.KernelIdeal.Layers
open Idealize.ShloMosaic Idealize.ShloMosaic.TcCoe Idealize.ShloMosaic.MatmulPlain Idealize.SL.Sem

/-- The three whole products carry a plain product's dimension numbers. -/
theorem plain1 : IsPlain (M := 50000) (K := 512) (N := 256) Cert.ReferenceIdeal.dot_S50000x512_S512x256_S50000x256_1_0_0_1_n_n :=
  ⟨rfl, rfl, rfl, rfl, rfl, rfl⟩
theorem plain2 : IsPlain (M := 50000) (K := 256) (N := 128) Cert.ReferenceIdeal.dot_S50000x256_S256x128_S50000x128_1_0_0_1_n_n :=
  ⟨rfl, rfl, rfl, rfl, rfl, rfl⟩
theorem plain3 : IsPlain (M := 50000) (K := 128) (N := 64) Cert.ReferenceIdeal.dot_S50000x128_S128x64_S50000x64_1_0_0_1_n_n :=
  ⟨rfl, rfl, rfl, rfl, rfl, rfl⟩

variable {F : FTy → Type} [FloatOps F]

set_option maxHeartbeats 4000000 in
/-- The reference's result term is the three layers' host functions around its three whole products. -/
theorem term_eq (m : (ℓ : Loc Cert.ReferenceIdeal.nD Cert.ReferenceIdeal.τ Cert.ReferenceIdeal.sig) → Buf (Elt F) ℓ)
    (c : Dev Cert.ReferenceIdeal.nD) :
    Cert.ReferenceIdeal.ValueP.res_main_v158 (F := F) m c
      = head (F := F) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))
          (Host.dotGeneral Cert.ReferenceIdeal.dot_S50000x128_S128x64_S50000x64_1_0_0_1_n_n none
            (layer128 (F := F) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg6))
              (Host.dotGeneral Cert.ReferenceIdeal.dot_S50000x256_S256x128_S50000x128_1_0_0_1_n_n none
                (layer256 (F := F) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg4))
                  (Host.dotGeneral Cert.ReferenceIdeal.dot_S50000x512_S512x256_S50000x256_1_0_0_1_n_n none (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3))))
                (m ((c.tc : Thread Cert.ReferenceIdeal.nD Cert.ReferenceIdeal.τ).loc Cert.ReferenceIdeal.main_arg5))))
            (m ((c.tc : Thread Cert.ReferenceIdeal.nD Cert.ReferenceIdeal.τ).loc Cert.ReferenceIdeal.main_arg7))) := by
  unfold Cert.ReferenceIdeal.ValueP.res_main_v158
  rfl

/-- Over the extended reals the reference's result is the network's function of its arguments. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v158 (F := Ideal) m c
      = network (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) := by
  rw [term_eq]
  simp only [Host.dotGeneral]
  rw [dotGeneral_eq_prod plain1, dotGeneral_eq_prod plain2, dotGeneral_eq_prod plain3]
  rfl

end Cert.ReferenceIdeal.Whole

end
-- ==== Proof.lean ====
/-
  A three-layer graph convolution network with a mean-pooling head, its three dense products `h · W` written as
  row-tiled kernels, against the same network with each product whole.

  Over the extended reals both programs compute ONE function of the eleven arguments (`Layers.network`):
  `max(conv(x·W1)+b1, 0)`, `max(conv(·W2)+b2, 0)`, `conv(·W3)+b3`, then the per-graph mean times `Wl` plus `bl`.
  The kernel multiplies 2000 rows at a time by the whole weight matrix, the operands' change of float format in front
  of the product being the identity there; row `p` of a product depends on row `p` of the left operand only, and the
  25 row blocks tile the 50000 rows, so each tiled product leaves the whole product.  The reference's
  `dot_general` is the same sum.  Everything between the products — the edge gathers, the degree normalisation, the
  scatter-adds, the pooling — is the same host operations on both sides and is carried as the same functions,
  never opened.  No law of arithmetic is used beyond reading both products as the same finite sum, so the inputs'
  finiteness is not needed.

  The three frames are the programs' runs with the results dropped; the idealization rewrote no operation.
-/
import proofs.«136460_j27874337751415_1_alg».proof.Defs
import proofs.«136460_j27874337751415_1_alg».proof.Proof.Gen.Kernel
import proofs.«136460_j27874337751415_1_alg».proof.Proof.Gen.Kernel.Skeleton
import proofs.«136460_j27874337751415_1_alg».proof.Proof.Gen.Kernel.Launch
import proofs.«136460_j27874337751415_1_alg».proof.Proof.Gen.Kernel.Points
import proofs.«136460_j27874337751415_1_alg».proof.Proof.Gen.Kernel.Frame
import proofs.«136460_j27874337751415_1_alg».proof.Proof.Gen.KernelIdeal
import proofs.«136460_j27874337751415_1_alg».proof.Proof.Gen.KernelIdeal.Skeleton
import proofs.«136460_j27874337751415_1_alg».proof.Proof.Gen.KernelIdeal.Launch
import proofs.«136460_j27874337751415_1_alg».proof.Proof.Gen.KernelIdeal.Points
import proofs.«136460_j27874337751415_1_alg».proof.Proof.Gen.KernelIdeal.Frame
import proofs.«136460_j27874337751415_1_alg».proof.Proof.Gen.ReferenceIdeal
import proofs.«136460_j27874337751415_1_alg».proof.Proof.Gen.Pre_finite_inputs
import proofs.«136460_j27874337751415_1_alg».proof.Proof.NamedRun
import proofs.«136460_j27874337751415_1_alg».proof.Proof.KernelValue
import proofs.«136460_j27874337751415_1_alg».proof.Proof.ReferenceRun
import proofs.«136460_j27874337751415_1_alg».proof.Proof.ReferenceValue
import Idealize.ShloMosaic.Adequacy
import Idealize.ShloMosaic.Init

set_option maxRecDepth 16384

noncomputable section

namespace Cert.Proof

open Idealize.ShloMosaic Idealize.ShloMosaic.TcCoe Idealize.SL.Sem Cert.KernelIdeal.Layers

/-- The kernel's program as printed runs, its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a line of host operations: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the network's function of those arguments. -/
theorem algebraic : Cert.algebraic_KernelIdeal_ReferenceIdeal := by
  intro m ρ m' ρ' _ hagree
  refine ⟨fun c => network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Whole.result_eq m ρ c), (h c).2⟩)
      (Cert.KernelIdeal.Named.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10⟩ := hagree c
    rw [Cert.ReferenceIdeal.Whole.result_eq m' c, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
